-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S16384x4096 : Shape := ⟨2, ![16384, 4096]⟩
abbrev S16384 : Shape := ⟨1, ![16384]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S2x512x4096 .f32) (main_arg1 : IVec S16384x4096 32) (main_arg2 : FVec F S16384 .f32) (main_arg3 : FVec F S16384 .f32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S16384 .f32 := Host.absf main_arg3
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S2x512x4096 : Shape := ⟨3, ![2, 512, 4096]⟩
abbrev S16384x4096 : Shape := ⟨2, ![16384, 4096]⟩
abbrev S16384 : Shape := ⟨1, ![16384]⟩
abbrev S1024x4096 : Shape := ⟨2, ![1024, 4096]⟩
abbrev S1x16384 : Shape := ⟨2, ![1, 16384]⟩
abbrev S1024x16384 : Shape := ⟨2, ![1024, 16384]⟩
abbrev S512x4096 : Shape := ⟨2, ![512, 4096]⟩
abbrev S1x512 : Shape := ⟨2, ![1, 512]⟩
abbrev S1024x512 : Shape := ⟨2, ![1024, 512]⟩
abbrev S2x512x16384 : Shape := ⟨3, ![2, 512, 16384]⟩

abbrev nBuf : Space → Nat
  | .hbm => 10
  | .vmem => 9
  | .smem => 0
  | _ => 0

abbrev bufTy : (tb : Table) → Fin (tcTables nBuf tb) → BufTy
  | .hbm, ⟨0, _⟩ => ⟨S2x512x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S1024x4096, .f32⟩
  | .hbm, ⟨5, _⟩ => ⟨S1024x4096, .bf16⟩
  | .hbm, ⟨6, _⟩ => ⟨S1x16384, .f32⟩
  | .hbm, ⟨7, _⟩ => ⟨S1x16384, .f32⟩
  | .hbm, ⟨8, _⟩ => ⟨S1024x16384, .f32⟩
  | .hbm, ⟨9, _⟩ => ⟨S2x512x16384, .f32⟩
  | .local _ .vmem, ⟨0, _⟩ => ⟨S1024x4096, .bf16⟩
  | .local _ .vmem, ⟨1, _⟩ => ⟨S512x4096, .i32⟩
  | .local _ .vmem, ⟨2, _⟩ => ⟨S512x4096, .i32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1024x512, .f32⟩
  | .local _ .vmem, ⟨8, _⟩ => ⟨S1024x512, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x512x4096_S1024x4096 : S2x512x4096.ShapeCasts S1024x4096
  bitsLt_bf16_f32 : FTy.bits .bf16 < FTy.bits .f32
  shapeCasts_S16384_S1x16384 : S16384.ShapeCasts S1x16384
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S512x4096_S512x4096_0_0 : ∀ a, (![0, 0] : Fin 2 → Nat) a + S512x4096.size a ≤ S512x4096.size a
  h_S512x4096 : 0 < S512x4096.numel
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  shapeCasts_S1024x16384_S2x512x16384 : S1024x16384.ShapeCasts S2x512x16384
  dot_S1024x4096_S512x4096_S1024x512_1_1_0_0_n_n_wf : DotDims.WF S1024x4096 S512x4096 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .i32 = 32 ∨ (Rect.block (s := S16384x4096) S512x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x16384.size a
  hwx0_2 : ∀ i : grid0.Coords, EltTy.bits .f32 = 32 ∨ (Rect.block (s := S1x16384) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x16384.size a
  hwx0_3 : ∀ i : grid0.Coords, EltTy.bits .f32 = 32 ∨ (Rect.block (s := S1x16384) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x16384.size a
  hwx0_4 : ∀ i : grid0.Coords, EltTy.bits .f32 = 32 ∨ (Rect.block (s := S1024x16384) S1024x512.size (cc0_transform_4 i) (hinb0_4 i)).WholeWords (EltTy.packing .f32)

variable [Facts₀]

def dot_S1024x4096_S512x4096_S1024x512_1_1_0_0_n_n : DotDims S1024x4096 S512x4096 S1024x512 where
  lhsContracting := [1]
  rhsContracting := [1]
  lhsNonContracting := [0]
  rhsNonContracting := [0]
  lhsBatch := []
  rhsBatch := []
  wf := dot_S1024x4096_S512x4096_S1024x512_1_1_0_0_n_n_wf

abbrev win0_0 : Pipeline.Window sig grid0 :=
  Pipeline.Window.ofSpec (Memref.whole main_v1) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S16384x4096 : Shape := ⟨2, ![16384, 4096]⟩
abbrev S16384 : Shape := ⟨1, ![16384]⟩
abbrev S16384x1 : Shape := ⟨2, ![16384, 1]⟩
abbrev S2x512x16384 : Shape := ⟨3, ![2, 512, 16384]⟩
abbrev S1x1x16384 : Shape := ⟨3, ![1, 1, 16384]⟩

abbrev nBuf : Space → Nat
  | .hbm => 12
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S16384x4096, .i32⟩
  | .hbm, ⟨2, _⟩ => ⟨S16384, .f32⟩
  | .hbm, ⟨3, _⟩ => ⟨S16384, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S2x512x16384, .f32⟩
  | .hbm, ⟨9, _⟩ => ⟨S1x1x16384, .f32⟩
  | .hbm, ⟨10, _⟩ => ⟨S2x512x16384, .f32⟩
  | .hbm, ⟨11, _⟩ => ⟨S2x512x16384, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]

class Facts₀ : Prop where
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S2x512x16384_0_1_2 : S1x1x16384.BroadcastsInDim S2x512x16384 (![0, 1, 2] : Fin 3 → Fin S2x512x16384.rank)
  dot_S2x512x4096_S16384x4096_S2x512x16384_2_1_01_0_n_n_wf : DotDims.WF S2x512x4096 S16384x4096 S2x512x16384 [2] [1] [0, 1] [0] [] []

variable [Facts₀]

def dot_S2x512x4096_S16384x4096_S2x512x16384_2_1_01_0_n_n : DotDims S2x512x4096 S16384x4096 S2x512x16384 where
  lhsContracting := [2]
  rhsContracting := [1]
  lhsNonContracting := [0, 1]
  rhsNonContracting := [0]
  lhsBatch := []
  rhsBatch := []
  wf := dot_S2x512x4096_S16384x4096_S2x512x16384_2_1_01_0_n_n_wf

class Facts : Prop extends Facts₀ where

variable [Facts]
-- ==== Proof.Spec.lean ====
/-
  The quantized dense layer as ONE function of its four argument arrays, on the extended reals:

      out[b, s, n] = (∑ k < 4096, x[b, s, k] · w[n, k]) · scale[n] + bias[n]

  with `w[n, k]` the signed integer the 32-bit word `wq[n, k]` denotes.  This is the arrangement in which the
  scale multiplies the finished dot product.  The other arrangement scales every weight before the product,

      out[b, s, n] = (∑ k < 4096, x[b, s, k] · (w[n, k] · scale[n])) + bias[n],

  and the two agree whenever every `x[b, s, k]` and every `scale[n]` is a real number: on the reals a common right
  factor leaves a finite sum (`Finset.sum_mul`).  On the extended reals the step is not available in general (a
  sum of products may be `0` while a scaled term is `±∞`), which is why finiteness of `x` and `scale` is assumed;
  the weights are integers and so always real, and the bias plays no part in the step.
-/
import Idealize.ShloMosaic.PureOps.Ideal
import Idealize.ShloMosaic.Lib.ValueIdx

noncomputable section

namespace Cert.QLinear

open Idealize.ShloMosaic Idealize.ShloMosaic.ValueIdx

/-- The index types of the four arguments and of the result. -/
abbrev XIdx : Type := (⟨3, ![2, 512, 4096]⟩ : Shape).Idx
abbrev WIdx : Type := (⟨2, ![16384, 4096]⟩ : Shape).Idx
abbrev NIdx : Type := (⟨1, ![16384]⟩ : Shape).Idx
abbrev OIdx : Type := (⟨3, ![2, 512, 16384]⟩ : Shape).Idx

/-- The activation an output element reads at contraction position `k`: `x[b, s, k]`. -/
abbrev xAt (i : OIdx) (k : Fin 4096) : XIdx := ix3 (⟨(i 0).val, (i 0).isLt⟩ : Fin 2) (⟨(i 1).val, (i 1).isLt⟩ : Fin 512) k
/-- The weight it reads there: `wq[n, k]`. -/
abbrev wAt (i : OIdx) (k : Fin 4096) : WIdx := ix2 (⟨(i 2).val, (i 2).isLt⟩ : Fin 16384) k
/-- Its output channel `n`, as an index of `scale` and `bias`. -/
abbrev nAt (i : OIdx) : NIdx := ix1 (⟨(i 2).val, (i 2).isLt⟩ : Fin 16384)

/-- The signed integer a weight word denotes, as an extended real. -/
abbrev wReal (b : BitVec 32) : EReal := ((b.toInt : ℝ) : EReal)

/-- The layer with the scale applied to the finished dot product. -/
def dense (x : XIdx → EReal) (wq : WIdx → BitVec 32) (scale bias : NIdx → EReal) : OIdx → EReal := fun i =>
  (∑ k : Fin 4096, x (xAt i k) * wReal (wq (wAt i k))) * scale (nAt i) + bias (nAt i)

/-- The layer with every weight scaled before the product. -/
def denseScaledWeights (x : XIdx → EReal) (wq : WIdx → BitVec 32) (scale bias : NIdx → EReal) : OIdx → EReal := fun i =>
  (∑ k : Fin 4096, x (xAt i k) * (wReal (wq (wAt i k)) * scale (nAt i))) + bias (nAt i)

/-- A finite sum of real numbers, read in the extended reals, is the sum of the readings. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A common right factor leaves a finite sum of products of REAL numbers: `∑ a·(b·r) = (∑ a·b)·r`, read in
    the extended reals. -/
theorem sum_mul_right {n : Nat} (x w : Fin n → EReal) (s : EReal)
    (hx : ∀ k, ∃ r : ℝ, x k = r) (hw : ∀ k, ∃ r : ℝ, w k = r) (hs : ∃ r : ℝ, s = r) :
    ∑ k, x k * (w k * s) = (∑ k, x k * w k) * s := by
  choose a ha using hx
  choose b hb using hw
  obtain ⟨r, rfl⟩ := hs
  have hl : ∀ k, x k * (w k * (r : EReal)) = ((a k * (b k * r) : ℝ) : EReal) := fun k => by
    rw [ha k, hb k, EReal.coe_mul, EReal.coe_mul]
  have hr : ∀ k, x k * w k = ((a k * b k : ℝ) : EReal) := fun k => by rw [ha k, hb k, EReal.coe_mul]
  rw [Finset.sum_congr rfl (fun k _ => hl k), Finset.sum_congr rfl (fun k _ => hr k), ← coe_sum, ← coe_sum,
    ← EReal.coe_mul, Finset.sum_mul]
  exact congrArg _ (Finset.sum_congr rfl fun k _ => by ring)

/-- The two arrangements of the layer are one function when `x` and `scale` hold real numbers. -/
theorem denseScaledWeights_eq_dense (x : XIdx → EReal) (wq : WIdx → BitVec 32) (scale bias : NIdx → EReal)
    (hx : ∀ j, ∃ r : ℝ, x j = r) (hs : ∀ j, ∃ r : ℝ, scale j = r) :
    denseScaledWeights x wq scale bias = dense x wq scale bias := by
  funext i
  unfold denseScaledWeights dense
  rw [sum_mul_right (fun k => x (xAt i k)) (fun k => wReal (wq (wAt i k))) (scale (nAt i))
    (fun k => hx _) (fun k => ⟨_, rfl⟩) (hs _)]

end Cert.QLinear

end
-- ==== Proof.Payload.lean ====
/-
  What the kernel body stores, read at one element.  At a grid point the body holds all 1024 rows of the
  activations (a [1024, 4096] block), 512 rows of the weight words (a [512, 4096] block) and the matching 512
  entries of the scale row and of the bias row (two [1, 512] blocks).  It converts the weight words to the signed
  integers they denote, contracts activations and weights over their common axis of length 4096 into a zero
  accumulator, multiplies by the scale row broadcast over the 1024 rows, and adds the bias row broadcast likewise.
  So the element at row `p`, column `q` of the [1024, 512] block it stores is

      (∑ k < 4096, a[p, k] · w[q, k]) · s[0, q] + t[0, q].

  Changes of float format are the identity on the extended reals, a shape cast between equal shapes is the
  identity, and the matrix product into the zero accumulator is the plain sum over the contraction axis.
-/
import proofs.«129489_j18021682774289_2_alg».proof.Proof.Gen.KernelIdeal.Skeleton
import proofs.«129489_j18021682774289_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.QLinear.Body

open Cert.KernelIdeal Cert.KernelIdeal.Gen Idealize.ShloMosaic Idealize.ShloMosaic.ValueIdx

/-- The body's contraction: axis 1 of the activations against axis 1 of the weights. -/
abbrev D := dot_S1024x4096_S512x4096_S1024x512_1_1_0_0_n_n

/-- The left operand is read at the output's row … -/
theorem lhs_row (j : S1024x512.Idx) (c : D.contr.Idx) : (D.lhsIdx j c 0).val = (j 0).val := by
  unfold DotDims.lhsIdx
  rw [dif_neg (show ¬(0 : Fin S1024x4096.rank) ∈ D.lhsBatch by decide),
    dif_pos (show (0 : Fin S1024x4096.rank) ∈ D.lhsNonContracting by decide)]
  rfl
/-- … and the contraction position; -/
theorem lhs_contr (j : S1024x512.Idx) (c : D.contr.Idx) : (D.lhsIdx j c 1).val = (c ⟨0, by decide⟩).val :=
  D.lhsIdx_val_of_single rfl j c
/-- the right operand at the output's column … -/
theorem rhs_row (j : S1024x512.Idx) (c : D.contr.Idx) : (D.rhsIdx j c 0).val = (j 1).val := by
  unfold DotDims.rhsIdx
  rw [dif_neg (show ¬(0 : Fin S512x4096.rank) ∈ D.rhsBatch by decide),
    dif_pos (show (0 : Fin S512x4096.rank) ∈ D.rhsNonContracting by decide)]
  rfl
/-- … and the contraction position. -/
theorem rhs_contr (j : S1024x512.Idx) (c : D.contr.Idx) : (D.rhsIdx j c 1).val = (c ⟨0, by decide⟩).val :=
  D.rhsIdx_val_of_single rfl j c

/-- The matrix product into the zero accumulator, at row `p` and column `q`: the sum over `k` of `a[p, k] · b[q, k]`. -/
theorem matmul_at (a : FVec Ideal S1024x4096 .bf16) (b : FVec Ideal S512x4096 .bf16) (p : Fin 1024) (q : Fin 512) :
    matmul (F := Ideal) D none a b (constant (F := Ideal) S1024x512 .f32 0x00000000#32) (ix2 p q)
      = ∑ k : Fin 4096, a (ix2 p k) * b (ix2 q k) := by
  simp only [matmul]
  rw [Ideal.matmul_constant_zero_apply, ← Equiv.sum_comp (contrEquiv1 D 4096 rfl rfl).symm]
  refine Finset.sum_congr rfl fun k _ => ?_
  have hk := contrEquiv1_symm_val D 4096 rfl rfl k
  have el : D.lhsIdx (ix2 p q) ((contrEquiv1 D 4096 rfl rfl).symm k) = ix2 p k := funext fun ax => Fin.ext (by
    match ax with
    | ⟨0, _⟩ => exact lhs_row _ _
    | ⟨1, _⟩ => exact (lhs_contr _ _).trans hk)
  have er : D.rhsIdx (ix2 p q) ((contrEquiv1 D 4096 rfl rfl).symm k) = ix2 q k := funext fun ax => Fin.ext (by
    match ax with
    | ⟨0, _⟩ => exact rhs_row _ _
    | ⟨1, _⟩ => exact (rhs_contr _ _).trans hk)
  rw [el, er]

/-- The stored block at row `p`, column `q`. -/
theorem pay_at (x0 : FVec Ideal S1024x4096 .bf16) (x1 : IVec S512x4096 32) (x2 x3 : FVec Ideal S1x512 .f32)
    (p : Fin 1024) (q : Fin 512) :
    k0_pay1 (F := Ideal) x0 x1 x2 x3 (ix2 p q)
      = (∑ k : Fin 4096, x0 (ix2 p k) * wReal (x1 (ix2 q k))) * x2 (ix2 (0 : Fin 1) q) + x3 (ix2 (0 : Fin 1) q) := by
  unfold k0_pay1
  rw [addf_apply, mulf_apply, shapeCast_self, shapeCast_self, shapeCast_self, broadcastTo_1b_ab_apply,
    broadcastTo_1b_ab_apply, matmul_at]
  rfl

end Cert.QLinear.Body

end
-- ==== Proof.Flat.lean ====
/-
  The layer on the flattened arrays.  The kernel's program first lays the activations out as 1024 rows
  (row `512·b + s` of the [1024, 4096] array is `x[b, s, ·]`), lays `scale` and `bias` out as [1, 16384] rows, and
  at the end lays the [1024, 16384] result out again as [2, 512, 16384].  On the flattened arrays the layer is

      rows[r, n] = (∑ k < 4096, X[r, k] · w[n, k]) · S[0, n] + T[0, n],

  and laid out again it is the layer itself: a reshape keeps the row-major position, and
  `(512·b + s)·4096 + k` is the position of `(b, s, k)`, `(512·b + s)·16384 + n` the position of `(b, s, n)`.
-/
import proofs.«129489_j18021682774289_2_alg».proof.Proof.Spec
import Idealize.ShloMosaic.Lib.ValueLayout
import Idealize.ShloMosaic.Lib.Pipeline.Value

noncomputable section

namespace Cert.QLinear

open Idealize.ShloMosaic Idealize.ShloMosaic.ValueIdx

abbrev X2Idx : Type := (⟨2, ![1024, 4096]⟩ : Shape).Idx
abbrev N2Idx : Type := (⟨2, ![1, 16384]⟩ : Shape).Idx
abbrev O2Idx : Type := (⟨2, ![1024, 16384]⟩ : Shape).Idx

/-- The layer on flattened activations `X`, the weight words, and the scale and bias rows. -/
def rows (X : X2Idx → EReal) (wq : WIdx → BitVec 32) (S T : N2Idx → EReal) : O2Idx → EReal := fun j =>
  (∑ k : Fin 4096, X (ix2 (⟨(j 0).val, (j 0).isLt⟩ : Fin 1024) k) * wReal (wq (ix2 (⟨(j 1).val, (j 1).isLt⟩ : Fin 16384) k)))
      * S (ix2 (0 : Fin 1) (⟨(j 1).val, (j 1).isLt⟩ : Fin 16384))
    + T (ix2 (0 : Fin 1) (⟨(j 1).val, (j 1).isLt⟩ : Fin 16384))

/-- The flat row of `(b, s)`. -/
abbrev rowOf (b : Fin 2) (s : Fin 512) : Fin 1024 := ⟨b.val * 512 + s.val, by have := b.isLt; have := s.isLt; omega⟩

/-- The flattened activations at row `512·b + s` are `x[b, s, ·]`. -/
theorem flatten_x (x : XIdx → EReal) (h : (⟨3, ![2, 512, 4096]⟩ : Shape).ShapeCasts ⟨2, ![1024, 4096]⟩)
    (b : Fin 2) (s : Fin 512) (k : Fin 4096) :
    shapeCast ⟨2, ![1024, 4096]⟩ x h (ix2 (rowOf b s) k) = x (ix3 b s k) :=
  shapeCast_apply x h _ _ (by
    rw [Shape.rowMajor_val_three, Shape.rowMajor_val_two]
    show (b.val * 512 + s.val) * 4096 + k.val = (b.val * 512 + s.val) * 4096 + k.val
    rfl)

/-- The flat result laid out as [2, 512, 16384] reads, at `(b, s, n)`, row `512·b + s`, column `n`. -/
theorem unflatten_out (y : O2Idx → EReal) (h : (⟨2, ![1024, 16384]⟩ : Shape).ShapeCasts ⟨3, ![2, 512, 16384]⟩)
    (b : Fin 2) (s : Fin 512) (n : Fin 16384) :
    shapeCast ⟨3, ![2, 512, 16384]⟩ y h (ix3 b s n) = y (ix2 (rowOf b s) n) :=
  shapeCast_apply y h _ _ (by
    rw [Shape.rowMajor_val_three, Shape.rowMajor_val_two]
    show (b.val * 512 + s.val) * 16384 + n.val = (b.val * 512 + s.val) * 16384 + n.val
    rfl)

/-- Flatten, apply the layer on rows, lay the result out again: the layer. (The change of float format of the
    flattened activations is the identity on the extended reals.) -/
theorem unflatten_rows (x : XIdx → EReal) (wq : WIdx → BitVec 32) (scale bias : NIdx → EReal)
    (hx : (⟨3, ![2, 512, 4096]⟩ : Shape).ShapeCasts ⟨2, ![1024, 4096]⟩)
    (hn : (⟨1, ![16384]⟩ : Shape).ShapeCasts ⟨2, ![1, 16384]⟩)
    (ho : (⟨2, ![1024, 16384]⟩ : Shape).ShapeCasts ⟨3, ![2, 512, 16384]⟩) :
    shapeCast ⟨3, ![2, 512, 16384]⟩
        (rows (shapeCast ⟨2, ![1024, 4096]⟩ x hx) wq (shapeCast ⟨2, ![1, 16384]⟩ scale hn) (shapeCast ⟨2, ![1, 16384]⟩ bias hn)) ho
      = dense x wq scale bias := by
  funext i
  obtain ⟨b, s, n, rfl⟩ : ∃ (b : Fin 2) (s : Fin 512) (n : Fin 16384), i = ix3 b s n := ⟨i 0, i 1, i 2, eq_ix3 i⟩
  rw [unflatten_out]
  unfold rows dense
  have hr : (⟨((ix2 (rowOf b s) n : O2Idx) 0).val, ((ix2 (rowOf b s) n : O2Idx) 0).isLt⟩ : Fin 1024) = rowOf b s := rfl
  have hc : (⟨((ix2 (rowOf b s) n : O2Idx) 1).val, ((ix2 (rowOf b s) n : O2Idx) 1).isLt⟩ : Fin 16384) = n := rfl
  rw [hr, hc, shapeCast_a_1a_apply, shapeCast_a_1a_apply]
  simp only [flatten_x]

end Cert.QLinear

end
-- ==== Proof.Region.lean ====
/-
  The array the grid leaves.  The 32 grid points tile the 16384 output channels in blocks of 512: point `t` holds
  all 1024 rows of the flattened activations, rows `512·t … 512·t + 511` of the weight words, and the same columns of
  the scale row and of the bias row, and writes back columns `512·t … 512·t + 511` of the [1024, 16384] result.  What it
  writes back is that block of ONE function of the four arrays the region finds — the layer on flattened arrays,
  `rows` — and every column lies in the block of point `n / 512`; so after the last point the result array is `rows`
  of the four arrays.
-/
import proofs.«129489_j18021682774289_2_alg».proof.Proof.Gen.KernelIdeal.Frame
import proofs.«129489_j18021682774289_2_alg».proof.Proof.Payload
import proofs.«129489_j18021682774289_2_alg».proof.Proof.Flat

set_option maxRecDepth 16384

noncomputable section

namespace Cert.QLinear.Region

open Cert.KernelIdeal Cert.KernelIdeal.Gen Idealize.ShloMosaic Idealize.ShloMosaic.TcCoe Idealize.ShloMosaic.ValueIdx
open Idealize.SL.Sem
open Idealize.ShloMosaic.Pipeline (Dat)

/-- Column `q` of the block of point `t` is column `512·t + q` of the array. -/
abbrev col (t : Nat) (ht : t < 32) (q : Fin 512) : Fin 16384 := ⟨t * 512 + q.val, by have := q.isLt; omega⟩

/-- From blocks that are the arrays' blocks of point `t`, the body stores the block of `rows` of the arrays:
    element `(p, q)` of the stored block is `rows[p, 512·t + q]`. -/
theorem block_at (X : X2Idx → EReal) (W : WIdx → BitVec 32) (S T : N2Idx → EReal)
    (x0 : FVec Ideal S1024x4096 .bf16) (x1 : IVec S512x4096 32) (x2 x3 : FVec Ideal S1x512 .f32) (t : Nat) (ht : t < 32)
    (h0 : ∀ (p : Fin 1024) (k : Fin 4096), x0 (ix2 p k) = X (ix2 p k))
    (h1 : ∀ (q : Fin 512) (k : Fin 4096), x1 (ix2 q k) = W (ix2 (col t ht q) k))
    (h2 : ∀ q : Fin 512, x2 (ix2 (0 : Fin 1) q) = S (ix2 (0 : Fin 1) (col t ht q)))
    (h3 : ∀ q : Fin 512, x3 (ix2 (0 : Fin 1) q) = T (ix2 (0 : Fin 1) (col t ht q)))
    (y : S1024x512.Idx) :
    k0_pay1 (F := Ideal) x0 x1 x2 x3 y
      = rows X W S T (ix2 (⟨(y 0).val, (y 0).isLt⟩ : Fin 1024) (col t ht ⟨(y 1).val, (y 1).isLt⟩)) := by
  obtain ⟨p, q, rfl⟩ : ∃ (p : Fin 1024) (q : Fin 512), y = ix2 p q := ⟨y 0, y 1, eq_ix2 y⟩
  rw [Body.pay_at]
  unfold rows
  simp only [h0, h1, h2, h3]

variable (m : (ℓ : Loc nD τ sig) → Buf (Elt Ideal) ℓ)

theorem hz : (![0, 0] : Fin 2 → Nat) = fun _ => 0 := funext fun a => by fin_cases a <;> rfl

/-- The printed index maps over the grid: the activations' block never moves; the weights' block moves down its
    rows with the point; the scale's, the bias's and the result's blocks move along their columns with it. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- The four arrays as the region finds them. -/
abbrev actRows (c : Dev nD) : X2Idx → EReal := V m c main_v1
abbrev weights (c : Dev nD) : WIdx → BitVec 32 := V m c main_arg1
abbrev scaleRow (c : Dev nD) : N2Idx → EReal := V m c main_v2
abbrev biasRow (c : Dev nD) : N2Idx → EReal := V m c main_v3

/-- What point `t` writes back is block `t` of `rows` of the four arrays. -/
theorem flushed_eq (c : Dev nD) (t : Fin cfg0.N) :
    (dats m 0 c).flushed 4 t = ((cfg0.win 4).blk t).view.read (Elt Ideal)
      (rows (actRows m c) (weights m c) (scaleRow m c) (biasRow m c)) := by
  show (cfg0.win 4).cut (grid0.coords t) ((dats m 0 c).after 4 t) = _
  rw [after0_4]
  unfold out0_4
  rw [View.canon_unit_zero hz]
  simp only [View.ld_unit_zero (S := S1024x4096) hz, View.ld_unit_zero (S := S512x4096) hz, View.ld_unit_zero (S := S1x512) hz]
  obtain ⟨e00, e01, e10, e11, e20, e21, e30, e31, e40, e41⟩ := idx_facts t
  have ht : t.val < 32 := t.isLt
  funext y
  refine (block_at (actRows m c) (weights m c) (scaleRow m c) (biasRow m c) (iblk m c 0 t) (iblk m c 1 t) (iblk m c 2 t)
    (iblk m c 3 t) t.val ht ?_ ?_ ?_ ?_ y).trans ?_
  · intro p k
    show V m c main_v1 (((cfg0.win 0).blk t).view.emb (ix2 p k)) = V m c main_v1 (ix2 p k)
    refine congrArg _ (funext fun a => Fin.ext ?_)
    match a with
    | ⟨0, _⟩ => show win0_0.index t (0 : Fin 2) * 1024 + 1 * p.val = p.val; omega
    | ⟨1, _⟩ => show win0_0.index t (1 : Fin 2) * 4096 + 1 * k.val = k.val; omega
  · intro q k
    show V m c main_arg1 (((cfg0.win 1).blk t).view.emb (ix2 q k)) = V m c main_arg1 (ix2 (col t.val ht q) k)
    refine congrArg _ (funext fun a => Fin.ext ?_)
    match a with
    | ⟨0, _⟩ => show win0_1.index t (0 : Fin 2) * 512 + 1 * q.val = t.val * 512 + q.val; omega
    | ⟨1, _⟩ => show win0_1.index t (1 : Fin 2) * 4096 + 1 * k.val = k.val; omega
  · intro q
    show V m c main_v2 (((cfg0.win 2).blk t).view.emb (ix2 (0 : Fin 1) q)) = V m c main_v2 (ix2 (0 : Fin 1) (col t.val ht q))
    refine congrArg _ (funext fun a => Fin.ext ?_)
    match a with
    | ⟨0, _⟩ => show win0_2.index t (0 : Fin 2) * 1 + 1 * 0 = 0; omega
    | ⟨1, _⟩ => show win0_2.index t (1 : Fin 2) * 512 + 1 * q.val = t.val * 512 + q.val; omega
  · intro q
    show V m c main_v3 (((cfg0.win 3).blk t).view.emb (ix2 (0 : Fin 1) q)) = V m c main_v3 (ix2 (0 : Fin 1) (col t.val ht q))
    refine congrArg _ (funext fun a => Fin.ext ?_)
    match a with
    | ⟨0, _⟩ => show win0_3.index t (0 : Fin 2) * 1 + 1 * 0 = 0; omega
    | ⟨1, _⟩ => show win0_3.index t (1 : Fin 2) * 512 + 1 * q.val = t.val * 512 + q.val; omega
  · show _ = rows (actRows m c) (weights m c) (scaleRow m c) (biasRow m c) (((cfg0.win 4).blk t).view.emb y)
    refine congrArg _ (funext fun a => Fin.ext ?_)
    match a with
    | ⟨0, _⟩ => show (y 0).val = win0_4.index t (0 : Fin 2) * 1024 + 1 * (y 0).val; omega
    | ⟨1, _⟩ => show t.val * 512 + (y 1).val = win0_4.index t (1 : Fin 2) * 512 + 1 * (y 1).val; omega

/-- An index of the result array is in point `t`'s block iff each coordinate is in the block's range on its axis. -/
theorem mem_blk (t : Fin cfg0.N) (i : S1024x16384.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v4).slice (win0_4.rect t)).set ↔ _
  rw [View.set_slice_whole, Rect.mem_set_unit]
  exact Iff.rfl

/-- Every index of the result array is in the block of the point its column falls in, `n / 512`. -/
theorem covered (i : S1024x16384.Idx) :
    ∃ t : Fin cfg0.N, (cfg0.win 4).flush t = true ∧ i ∈ ((cfg0.win 4).blk t).view.set := by
  have hi0 : (i 0).val < 1024 := (i 0).isLt
  have hi1 : (i 1).val < 16384 := (i 1).isLt
  have hN : cfg0.N = 32 := N_0
  refine ⟨⟨(i 1).val / 512, by rw [hN]; omega⟩, flush0_4 _, ?_⟩
  rw [mem_blk]
  obtain ⟨e00, e01, e10, e11, e20, e21, e30, e31, e40, e41⟩ := idx_facts ⟨(i 1).val / 512, by rw [hN]; omega⟩
  intro a
  match a with
  | ⟨0, _⟩ =>
    show win0_4.index _ (0 : Fin 2) * 1024 ≤ (i 0).val ∧ (i 0).val < win0_4.index _ (0 : Fin 2) * 1024 + 1024
    rw [e40]; omega
  | ⟨1, _⟩ =>
    show win0_4.index _ (1 : Fin 2) * 512 ≤ (i 1).val ∧ (i 1).val < win0_4.index _ (1 : Fin 2) * 512 + 512
    rw [e41]; show (i 1).val / 512 * 512 ≤ (i 1).val ∧ (i 1).val < (i 1).val / 512 * 512 + 512; omega

/-- The result array after the last point: `rows` of the four arrays the region found. -/
theorem final (c : Dev nD) :
    (dats m 0 c).arrAt 4 cfg0.N = rows (actRows m c) (weights m c) (scaleRow m c) (biasRow m c) :=
  (dats m 0 c).arrAt_eq_of_cover 4 _ (fun t _ => flushed_eq m c t) covered

end Cert.QLinear.Region

end
-- ==== Proof.KernelValue.lean ====
/-
  The kernel's program, start to end.  Before the grid the program flattens the activations to 1024 rows (and
  changes their float format, the identity on the extended reals) and lays `scale` and `bias` out as rows; the
  weight words go in as they are.  The grid leaves the layer on those flattened arrays in the [1024, 16384] result
  array; the one operation after the grid lays that array out as [2, 512, 16384].  Flatten, the layer on rows, lay out
  again is the layer itself: every weakly fair execution ends with the result at `dense` of the four arguments,
  and the arguments as they were.
-/
import proofs.«129489_j18021682774289_2_alg».proof.Proof.Region

set_option maxRecDepth 16384

noncomputable section

namespace Cert.QLinear.Kernel

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The flattened activations the region finds. -/
theorem act_eq (c : Dev nD) :
    Region.actRows m c
      = shapeCast S1024x4096 (m ((c : Thread nD τ).loc main_arg0) : XIdx → EReal) shapeCasts_S2x512x4096_S1024x4096 := by
  show StableHlo.after hostOps0 (fun b => m (c, b)) (Proc.devRef .tc main_v1) = _
  after_results
  rfl

/-- The scale row the region finds. -/
theorem scale_eq (c : Dev nD) :
    Region.scaleRow m c
      = shapeCast S1x16384 (m ((c : Thread nD τ).loc main_arg2) : NIdx → EReal) shapeCasts_S16384_S1x16384 := by
  show StableHlo.after hostOps0 (fun b => m (c, b)) (Proc.devRef .tc main_v2) = _
  after_results
  rfl

/-- The bias row the region finds. -/
theorem bias_eq (c : Dev nD) :
    Region.biasRow m c
      = shapeCast S1x16384 (m ((c : Thread nD τ).loc main_arg3) : NIdx → EReal) shapeCasts_S16384_S1x16384 := by
  show StableHlo.after hostOps0 (fun b => m (c, b)) (Proc.devRef .tc main_v3) = _
  after_results
  rfl

/-- The program's result after the operation that follows the grid. -/
theorem tail_eq (c : Dev nD) :
    Pipeline.afterTail₀ cfgs (dats m) 0 (V0 m) [hostOps1] c main_v5
      = dense (m ((c : Thread nD τ).loc main_arg0)) (m ((c : Thread nD τ).loc main_arg1))
          (m ((c : Thread nD τ).loc main_arg2)) (m ((c : Thread nD τ).loc main_arg3)) := by
  unfold Pipeline.afterTail₀
  show StableHlo.after hostOps1 _ (Proc.devRef .tc main_v5) = _
  after_results
  have hA : Pipeline.withArrays (cfgs 0).spec c (V0 m c) (fun w => (dats m 0 c).arrAt w (cfgs 0).N) (Proc.devRef .tc main_v4)
      = rows (Region.actRows m c) (Region.weights m c) (Region.scaleRow m c) (Region.biasRow m c) :=
    (Pipeline.withArrays_arr spec0 launch0.win.arr_inj c _ _ 4).trans (Region.final m c)
  rw [hA, act_eq, scale_eq, bias_eq, show Region.weights m c = m ((c : Thread nD τ).loc main_arg1) from V_main_arg1 m c]
  exact unflatten_rows _ _ _ _ _ _ _

/-- THE KERNEL'S RUN: every weakly fair execution of the program terminates with the result array at the layer of
    the four arguments, and the arguments unchanged. -/
theorem run : θ_run defs (onTc (τ := τ) (main (F := Ideal))) ⟨m, fun _ => 0, ρ⟩ (fun r => ∀ c : Dev nD,
      r.2.mem ((c.tc : Thread nD τ).loc main_v5)
        = dense (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.QLinear.Kernel

end
-- ==== Proof.RefValue.lean ====
/-
  The reference program computes the layer with every weight scaled before the product: its result term, read one
  operation at a time at an output index `(b, s, n)`, is

      (∑ k, x[b, s, k] · (w[n, k] · scale[n])) + bias[n].

  The conversion of the weight words is the signed integer they denote; the two broadcasts of `scale` (to a column,
  then along the rows) read `scale[n]` at every `(n, k)`; the contraction pairs axis 2 of `x` with axis 1 of the
  scaled weights; and the two broadcasts of `bias` read `bias[n]` at every `(b, s, n)`.
-/
import proofs.«129489_j18021682774289_2_alg».proof.Proof.Gen.ReferenceIdeal.Read
import proofs.«129489_j18021682774289_2_alg».proof.Proof.Spec

noncomputable section

namespace Cert.QLinear.Ref

open Cert.ReferenceIdeal Cert.ReferenceIdeal.Read Idealize.ShloMosaic Idealize.ShloMosaic.ValueIdx

/-- The left operand of the contraction is read at `x[b, s, k]`. -/
theorem lidx_eq (i : S2x512x16384.Idx) (k : Fin 4096) : lidx_main_v4 i k = xAt i k :=
  funext fun a => match a with | ⟨0, _⟩ => rfl | ⟨1, _⟩ => rfl | ⟨2, _⟩ => rfl

/-- The right operand at `(n, k)`. -/
theorem ridx_eq (i : S2x512x16384.Idx) (k : Fin 4096) : ridx_main_v4 i k = wAt i k :=
  funext fun a => match a with | ⟨0, _⟩ => rfl | ⟨1, _⟩ => rfl

/-- The scale broadcast over the weights is read at the weight's row `n`. -/
theorem scale_idx_eq (i : S2x512x16384.Idx) (k : Fin 4096) : idx_main_v1 (idx_main_v2 (wAt i k)) = nAt i :=
  funext fun a => match a with | ⟨0, _⟩ => rfl

/-- The bias broadcast over the result is read at the result's channel `n`. -/
theorem bias_idx_eq (i : S2x512x16384.Idx) : idx_main_v5 (idx_main_v6 i) = nAt i :=
  funext fun a => match a with | ⟨0, _⟩ => rfl

/-- The reference's result is the layer with the weights scaled first. -/
theorem ref_eq (x0 : (⟨S2x512x4096, .f32⟩ : BufTy).Contents (Elt Ideal)) (x1 : (⟨S16384x4096, .i32⟩ : BufTy).Contents (Elt Ideal))
    (x2 x3 : (⟨S16384, .f32⟩ : BufTy).Contents (Elt Ideal)) :
    val_main_v7 (F := Ideal) x0 x1 x2 x3 = denseScaledWeights x0 x1 x2 x3 := by
  funext i
  rw [val_main_v7_apply, val_main_v4_apply, val_main_v6_apply, val_main_v5_apply]
  unfold denseScaledWeights
  simp only [val_main_v3_apply, val_main_v2_apply, val_main_v1_apply, val_main_v0_apply, lidx_eq, ridx_eq, scale_idx_eq,
    bias_idx_eq]
  rfl

end Cert.QLinear.Ref

end
-- ==== Proof.Finite.lean ====
/-
  What the precondition gives.  It says, of each float argument, that every entry's absolute value is below
  `+∞` (the word `0x7F800000`), the three statements joined by `and`.  On the extended reals `|v| < +∞` rules out
  both infinities, so every entry of the activations and of `scale` is a real number.  (The same holds of `bias`
  and is not needed.)
-/
import proofs.«129489_j18021682774289_2_alg».proof.Pre_finite_inputs
import Idealize.ShloMosaic.PureOps.Ideal
import Idealize.ShloMosaic.PureOps.Ideal.Laws
import Idealize.ShloMosaic.Lib.ReduceAll
import Idealize.ShloMosaic.Lib.ValueIdx

noncomputable section

namespace Cert.QLinear.Finite

open Cert.Pre_finite_inputs Idealize.ShloMosaic Idealize.ShloMosaic.ValueIdx

variable [Cert.Pre_finite_inputs.Facts]

/-- The shape of a scalar has one index. -/
instance : Subsingleton S_.Idx := ⟨fun a b => funext fun d => d.elim0⟩

/-- The word the precondition compares against denotes `+∞`. -/
theorem inf_word : Ideal.ofBits .f32 0x7F800000#32 = ⊤ := by simp [Ideal.ofBits, Ideal.ieee]

/-- An extended real whose absolute value is below `+∞` is a real number. -/
theorem real_of_abs_lt (v : EReal) (h : Ideal.cmp .olt (max v (-v)) (Ideal.ofBits .f32 0x7F800000#32) = 1#1) :
    ∃ r : ℝ, v = r := by
  rw [inf_word] at h
  induction v using EReal.rec with
  | bot => simp [Ideal.cmp] at h
  | top => simp [Ideal.cmp] at h
  | coe r => exact ⟨r, rfl⟩

/-- Under the precondition the activations and `scale` hold real numbers. -/
theorem reals_of_pre (x : FVec Ideal S2x512x4096 .f32) (w : IVec S16384x4096 32) (s b : FVec Ideal S16384 .f32)
    (h : Cert.Pre_finite_inputs.fn (F := Ideal) x w s b = fun _ => 1#1) :
    (∀ j, ∃ r : ℝ, x j = r) ∧ (∀ j, ∃ r : ℝ, s j = r) := by
  have h0 := congrFun h ix0
  dsimp only [Cert.Pre_finite_inputs.fn] at h0
  obtain ⟨h01, -⟩ := IntOp.andi_eq_one.mp h0
  obtain ⟨hx, hs⟩ := IntOp.andi_eq_one.mp h01
  exact ⟨fun j => real_of_abs_lt _ (Host.reduce_andi_all _ _ _ _ _ hx j),
    fun j => real_of_abs_lt _ (Host.reduce_andi_all _ _ _ _ _ hs j)⟩

end Cert.QLinear.Finite

end
-- ==== Proof.lean ====
/-
  The quantized dense layer `out = x · (wq · scale)ᵀ + bias`: a kernel that multiplies the activations by the integer
  weights on a grid of 32 column blocks and applies `scale` and `bias` to each finished block, against a reference
  that scales the weights first and contracts once.

  On the extended reals both programs compute, at every `(b, s, n)`, a sum over `k < 4096` of products
  `x[b, s, k] · w[n, k]` with the scale `scale[n]` either outside the sum (the kernel: `Cert.QLinear.dense`) or
  inside every term (the reference: `Cert.QLinear.denseScaledWeights`), plus `bias[n]`.  The two are equal when
  `x` and `scale` hold real numbers (a common factor leaves a finite sum of reals), which is what the precondition
  provides; the weights are integers.  Changes of float format and the tiling of the output channels do not change
  the value.

  The modules: `Spec` (the two arrangements and the law between them), `Flat` (the layer on flattened arrays),
  `Payload` (one stored element of the kernel body), `Region` (the array the grid leaves), `KernelValue` (the
  kernel's run), `RefValue` (the reference's result read at an index), `Finite` (what the precondition gives).
  The three frames are the generated ones (the reference's is its generated run with the result dropped).  The
  idealized kernel is the kernel's own text read on the extended reals, so the preservation claim is `True`.
-/
import proofs.«129489_j18021682774289_2_alg».proof.Defs
import proofs.«129489_j18021682774289_2_alg».proof.Proof.Gen.Kernel
import proofs.«129489_j18021682774289_2_alg».proof.Proof.Gen.Kernel.Frame
import proofs.«129489_j18021682774289_2_alg».proof.Proof.Gen.KernelIdeal
import proofs.«129489_j18021682774289_2_alg».proof.Proof.Gen.KernelIdeal.Frame
import proofs.«129489_j18021682774289_2_alg».proof.Proof.Gen.ReferenceIdeal
import proofs.«129489_j18021682774289_2_alg».proof.Proof.Gen.ReferenceIdeal.Run
import proofs.«129489_j18021682774289_2_alg».proof.Proof.Gen.ReferenceIdeal.Read
import proofs.«129489_j18021682774289_2_alg».proof.Proof.Gen.Pre_finite_inputs
import proofs.«129489_j18021682774289_2_alg».proof.Proof.KernelValue
import proofs.«129489_j18021682774289_2_alg».proof.Proof.RefValue
import proofs.«129489_j18021682774289_2_alg».proof.Proof.Finite
import Idealize.ShloMosaic.Adequacy
import Idealize.ShloMosaic.Init

noncomputable section

namespace Cert.Proof

open Idealize.ShloMosaic Idealize.SL.Sem Cert.QLinear

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer of the arguments: the kernel with the scale outside the sum, the reference
    with the scale inside every term, one function where the activations and the scale are real numbers. -/
theorem algebraic : Cert.algebraic_KernelIdeal_ReferenceIdeal := by
  intro m ρ m' ρ' hpre hagree
  refine ⟨_, Cert.QLinear.Kernel.run m ρ, ?_⟩
  refine (θ_run Cert.ReferenceIdeal.defs _ _).mono (fun _ h c => ⟨?_, (h c).2⟩)
    (Cert.ReferenceIdeal.Value.run (F := Ideal) m' ρ')
  obtain ⟨hx, hs⟩ := Cert.QLinear.Finite.reals_of_pre _ _ _ _ (hpre c)
  refine (h c).1.trans ?_
  rw [(hagree c).1, (hagree c).2.1, (hagree c).2.2.1, (hagree c).2.2.2]
  exact ((Cert.ReferenceIdeal.Read.val_main_v7_eq _ _ _ _).trans (Cert.QLinear.Ref.ref_eq _ _ _ _)).trans
    (denseScaledWeights_eq_dense _ _ _ _ hx hs)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
